-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S300x512 : Shape := ⟨2, ![300, 512]⟩
abbrev S300 : Shape := ⟨1, ![300]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S300x512 : S_.BroadcastsInDim S300x512 (![] : Fin 0 → Fin S300x512.rank)
  reducesTo_S300x512_S_d0_1 : S300x512.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg7 : FVec F S300 .f32) (main_v33 : IVec S_ 1) : IVec S_ 1 :=
  let main_v34 : FVec F S300 .f32 := Host.absf main_arg7
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S300x512 .f32) (main_arg7 : FVec F S300 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S300x512 .f32 := Host.absf main_arg6
  let main_cst_10 : FVec F S_ .f32 := constant S_ .f32 0x7F800000#32
  let main_v30 : FVec F S300x512 .f32 := broadcastInDim S300x512 ![] bcast_S_S300x512 main_cst_10
  let main_v31 : IVec S300x512 1 := cmpf .olt main_v29 main_v30
  let main_c_11 : IVec S_ 1 := constantI S_ 1 1#1
  let main_v32 : IVec S_ 1 := (fun x v => Host.reduce IntOp.andi x v reducesTo_S300x512_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x64x512 .f32) (main_arg2 : FVec F S512x512 .f32) (main_arg3 : FVec F S512 .f32) (main_arg4 : FVec F S512x512 .f32) (main_arg5 : FVec F S512 .f32) (main_arg6 : FVec F S300x512 .f32) (main_arg7 : FVec F S300 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S300x512 : Shape := ⟨2, ![300, 512]⟩
abbrev S300 : Shape := ⟨1, ![300]⟩
abbrev S2048x512 : Shape := ⟨2, ![2048, 512]⟩
abbrev S256x512 : Shape := ⟨2, ![256, 512]⟩
abbrev S1x512 : Shape := ⟨2, ![1, 512]⟩
abbrev S64x512 : Shape := ⟨2, ![64, 512]⟩
abbrev S512x300 : Shape := ⟨2, ![512, 300]⟩
abbrev S8x256x64x300 : Shape := ⟨4, ![8, 256, 64, 300]⟩
abbrev S1x32x512 : Shape := ⟨3, ![1, 32, 512]⟩
abbrev S1x64x512 : Shape := ⟨3, ![1, 64, 512]⟩
abbrev S1x32x64x300 : Shape := ⟨4, ![1, 32, 64, 300]⟩
abbrev S32x512 : Shape := ⟨2, ![32, 512]⟩
abbrev S32x1x512 : Shape := ⟨3, ![32, 1, 512]⟩
abbrev S32x64x512 : Shape := ⟨3, ![32, 64, 512]⟩
abbrev S2048x300 : Shape := ⟨2, ![2048, 300]⟩
abbrev S1x300 : Shape := ⟨2, ![1, 300]⟩
abbrev S32x64x300 : Shape := ⟨3, ![32, 64, 300]⟩

abbrev nBuf : Space → Nat
  | .hbm => 18
  | .vmem => 20
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S300x512, .f32⟩
  | .hbm, ⟨7, _⟩ => ⟨S300, .f32⟩
  | .hbm, ⟨8, _⟩ => ⟨S2048x512, .f32⟩
  | .hbm, ⟨9, _⟩ => ⟨S512x512, .f32⟩
  | .hbm, ⟨10, _⟩ => ⟨S512x512, .f32⟩
  | .hbm, ⟨11, _⟩ => ⟨S2048x512, .f32⟩
  | .hbm, ⟨12, _⟩ => ⟨S8x256x512, .f32⟩
  | .hbm, ⟨13, _⟩ => ⟨S512x512, .f32⟩
  | .hbm, ⟨14, _⟩ => ⟨S512x512, .f32⟩
  | .hbm, ⟨15, _⟩ => ⟨S8x64x512, .f32⟩
  | .hbm, ⟨16, _⟩ => ⟨S512x300, .f32⟩
  | .hbm, ⟨17, _⟩ => ⟨S8x256x64x300, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512, .f32⟩
  | .local _ .vmem, ⟨4, _⟩ => ⟨S256x512, .f32⟩
  | .local _ .vmem, ⟨5, _⟩ => ⟨S256x512, .f32⟩
  | .local _ .vmem, ⟨6, _⟩ => ⟨S64x512, .f32⟩
  | .local _ .vmem, ⟨7, _⟩ => ⟨S64x512, .f32⟩
  | .local _ .vmem, ⟨8, _⟩ => ⟨S512x512, .f32⟩
  | .local _ .vmem, ⟨9, _⟩ => ⟨S512, .f32⟩
  | .local _ .vmem, ⟨10, _⟩ => ⟨S64x512, .f32⟩
  | .local _ .vmem, ⟨11, _⟩ => ⟨S64x512, .f32⟩
  | .local _ .vmem, ⟨12, _⟩ => ⟨S1x32x512, .f32⟩
  | .local _ .vmem, ⟨13, _⟩ => ⟨S1x32x512, .f32⟩
  | .local _ .vmem, ⟨14, _⟩ => ⟨S1x64x512, .f32⟩
  | .local _ .vmem, ⟨15, _⟩ => ⟨S1x64x512, .f32⟩
  | .local _ .vmem, ⟨16, _⟩ => ⟨S512x300, .f32⟩
  | .local _ .vmem, ⟨17, _⟩ => ⟨S300, .f32⟩
  | .local _ .vmem, ⟨18, _⟩ => ⟨S1x32x64x300, .f32⟩
  | .local _ .vmem, ⟨19, _⟩ => ⟨S1x32x64x300, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S512x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x32x64x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S8x256x512_S2048x512 : S8x256x512.ShapeCasts S2048x512
  shapeCasts_S8x64x512_S512x512 : S8x64x512.ShapeCasts S512x512
  transposes_S512x512_S512x512_1_0 : S512x512.Transposes [1, 0] S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S2048x512_S8x256x512 : S2048x512.ShapeCasts S8x256x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x512_S64x512 : S1x512.Broadcasts S64x512
  shapeCasts_S512x512_S8x64x512 : S512x512.ShapeCasts S8x64x512
  transposes_S300x512_S512x300_1_0 : S300x512.Transposes [1, 0] S512x300
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S300_S300_0 : ∀ a, (![0] : Fin 1 → Nat) a + S300.size a ≤ S300.size a
  h_S300 : 0 < S300.numel
  shapeCasts_S300_S1x300 : S300.ShapeCasts S1x300
  broadcasts_S1x300_S2048x300 : S1x300.Broadcasts S2048x300
  shapeCasts_S2048x300_S32x64x300 : S2048x300.ShapeCasts S32x64x300
  inb_S1x32x64x300_S1x32x64x300_0_0_0_0 : ∀ a, (![0, 0, 0, 0] : Fin 4 → Nat) a + S1x32x64x300.size a ≤ S1x32x64x300.size a
  h_S1x32x64x300 : 0 < S1x32x64x300.numel
  shapeCasts_S1x32x64x300_S32x64x300 : S1x32x64x300.ShapeCasts S32x64x300
  shapeCasts_S32x64x300_S1x32x64x300 : S32x64x300.ShapeCasts S1x32x64x300
  dot_S256x512_S512x512_S256x512_1_0_0_1_n_n_wf : DotDims.WF S256x512 S512x512 S256x512 [1] [0] [0] [1] [] []
  dot_S64x512_S512x512_S64x512_1_0_0_1_n_n_wf : DotDims.WF S64x512 S512x512 S64x512 [1] [0] [0] [1] [] []
  dot_S2048x512_S512x300_S2048x300_1_0_0_1_n_n_wf : DotDims.WF S2048x512 S512x300 S2048x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x512.size a
  hwx0_3 : ∀ i : grid0.Coords, EltTy.bits .f32 = 32 ∨ (Rect.block (s := S2048x512) S256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S512x512.size a
  hwx1_0 : ∀ i : grid1.Coords, EltTy.bits .f32 = 32 ∨ (Rect.block (s := S512x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S512x512.size a
  hwx1_3 : ∀ i : grid1.Coords, EltTy.bits .f32 = 32 ∨ (Rect.block (s := S512x512) S64x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x512.size a ≤ S8x256x512.size a
  hwx2_0 : ∀ i : grid2.Coords, EltTy.bits .f32 = 32 ∨ (Rect.block (s := S8x256x512) S1x32x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x512.size a ≤ S8x64x512.size a
  hwx2_1 : ∀ i : grid2.Coords, EltTy.bits .f32 = 32 ∨ (Rect.block (s := S8x64x512) S1x64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x300.size a ≤ S512x300.size a
  hwx2_2 : ∀ i : grid2.Coords, EltTy.bits .f32 = 32 ∨ (Rect.block (s := S512x300) S512x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S300.size a ≤ S300.size a
  hwx2_3 : ∀ i : grid2.Coords, EltTy.bits .f32 = 32 ∨ (Rect.block (s := S300) S300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x64x300.size a ≤ S8x256x64x300.size a
  hwx2_4 : ∀ i : grid2.Coords, EltTy.bits .f32 = 32 ∨ (Rect.block (s := S8x256x64x300) S1x32x64x300.size (cc2_transform_4 i) (hinb2_4 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x300_S2048x300_1_0_0_1_n_n : DotDims S2048x512 S512x300 S2048x300 where
  lhsContracting := [1]
  rhsContracting := [0]
  lhsNonContracting := [0]
  rhsNonContracting := [1]
  lhsBatch := []
  rhsBatch := []
  wf := dot_S2048x512_S512x300_S2048x300_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x32x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x32x64x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S300x512 : Shape := ⟨2, ![300, 512]⟩
abbrev S300 : Shape := ⟨1, ![300]⟩
abbrev S1x1x512 : Shape := ⟨3, ![1, 1, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x300 : Shape := ⟨4, ![8, 256, 64, 300]⟩
abbrev S1x1x1x300 : Shape := ⟨4, ![1, 1, 1, 300]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S300x512, .f32⟩
  | .hbm, ⟨7, _⟩ => ⟨S300, .f32⟩
  | .hbm, ⟨8, _⟩ => ⟨S8x256x512, .f32⟩
  | .hbm, ⟨9, _⟩ => ⟨S1x1x512, .f32⟩
  | .hbm, ⟨10, _⟩ => ⟨S8x256x512, .f32⟩
  | .hbm, ⟨11, _⟩ => ⟨S8x256x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x256x1x512, .f32⟩
  | .hbm, ⟨17, _⟩ => ⟨S8x1x64x512, .f32⟩
  | .hbm, ⟨18, _⟩ => ⟨S8x256x64x512, .f32⟩
  | .hbm, ⟨19, _⟩ => ⟨S8x256x64x512, .f32⟩
  | .hbm, ⟨20, _⟩ => ⟨S8x256x64x512, .f32⟩
  | .hbm, ⟨21, _⟩ => ⟨S8x256x64x512, .f32⟩
  | .hbm, ⟨22, _⟩ => ⟨S8x256x64x300, .f32⟩
  | .hbm, ⟨23, _⟩ => ⟨S1x1x1x300, .f32⟩
  | .hbm, ⟨24, _⟩ => ⟨S8x256x64x300, .f32⟩
  | .hbm, ⟨25, _⟩ => ⟨S8x256x64x300, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  bcast_S1x1x512_S8x64x512_0_1_2 : S1x1x512.BroadcastsInDim S8x64x512 (![0, 1, 2] : Fin 3 → Fin S8x64x512.rank)
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S300_S1x1x1x300_3 : S300.BroadcastsInDim S1x1x1x300 (![3] : Fin 1 → Fin S1x1x1x300.rank)
  bcast_S1x1x1x300_S8x256x64x300_0_1_2_3 : S1x1x1x300.BroadcastsInDim S8x256x64x300 (![0, 1, 2, 3] : Fin 4 → Fin S8x256x64x300.rank)
  dot_S8x256x512_S512x512_S8x256x512_2_1_01_0_n_n_wf : DotDims.WF S8x256x512 S512x512 S8x256x512 [2] [1] [0, 1] [0] [] []
  dot_S8x64x512_S512x512_S8x64x512_2_1_01_0_n_n_wf : DotDims.WF S8x64x512 S512x512 S8x64x512 [2] [1] [0, 1] [0] [] []
  dot_S8x256x64x512_S300x512_S8x256x64x300_3_1_012_0_n_n_wf : DotDims.WF S8x256x64x512 S300x512 S8x256x64x300 [3] [1] [0, 1, 2] [0] [] []

variable [Facts₀]

def dot_S8x256x512_S512x512_S8x256x512_2_1_01_0_n_n : DotDims S8x256x512 S512x512 S8x256x512 where
  lhsContracting := [2]
  rhsContracting := [1]
  lhsNonContracting := [0, 1]
  rhsNonContracting := [0]
  lhsBatch := []
  rhsBatch := []
  wf := dot_S8x256x512_S512x512_S8x256x512_2_1_01_0_n_n_wf
def dot_S8x64x512_S512x512_S8x64x512_2_1_01_0_n_n : DotDims S8x64x512 S512x512 S8x64x512 where
  lhsContracting := [2]
  rhsContracting := [1]
  lhsNonContracting := [0, 1]
  rhsNonContracting := [0]
  lhsBatch := []
  rhsBatch := []
  wf := dot_S8x64x512_S512x512_S8x64x512_2_1_01_0_n_n_wf
def dot_S8x256x64x512_S300x512_S8x256x64x300_3_1_012_0_n_n : DotDims S8x256x64x512 S300x512 S8x256x64x300 where
  lhsContracting := [3]
  rhsContracting := [1]
  lhsNonContracting := [0, 1, 2]
  rhsNonContracting := [0]
  lhsBatch := []
  rhsBatch := []
  wf := dot_S8x256x64x512_S300x512_S8x256x64x300_3_1_012_0_n_n_wf

class Facts : Prop extends Facts₀ where

variable [Facts]
-- ==== Proof.Spec.lean ====
/-
  The network both programs compute, as functions of arrays of extended reals.

  A row `x` of a batch goes through a linear layer with bias, `x · wt + b`, where `wt` is the
  weight matrix stored contraction axis first (`lin`).  The joint layer takes an encoder row
  `e[b, t, ·]` and a predictor row `p[b, u, ·]`, adds them, applies `tanh` entry by entry and
  projects the 512 entries onto 300 logits with another linear layer (`joint`).

  `G` is the whole network written directly over the eight arguments, with every weight matrix
  read in its stored (output axis first) orientation:
    enc  b t j = Σ_d  X[b, t, d] · We[j, d] + be[j]
    pred b u j = Σ_d  P[b, u, d] · Wp[j, d] + bp[j]
    G[b, t, u, v] = Σ_j tanh (enc b t j + pred b u j) · Wo[v, j] + bo[v].
  Sums over a finite index set in the extended reals do not depend on order or grouping, so no
  finiteness of the inputs is needed anywhere.
-/
import Idealize.ShloMosaic.PureOps.Ideal
import Idealize.ShloMosaic.Lib.ValueIdx

noncomputable section

namespace Cert.Joint

open Idealize.ShloMosaic Idealize.ShloMosaic.ValueIdx

/-- Arrays of extended reals by their literal extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal
abbrev Arr4 (a b c d : Nat) : Type := (⟨4, ![a, b, c, d]⟩ : Shape).Idx → EReal

/-- A linear layer with bias over `M` rows: entry `(r, j)` is `Σ_d x[r, d] · wt[d, j] + b[j]`. -/
def lin {M : Nat} (x : Arr2 M 512) (wt : Arr2 512 512) (b : Arr1 512) : Arr2 M 512 :=
  fun i => (∑ d : Fin 512, x (ix2 (i 0) d) * wt (ix2 d (i 1))) + b (ix1 (i 1))

/-- The joint layer: entry `(b, t, u, v)` is `Σ_j tanh (e[b, t, j] + p[b, u, j]) · wt[j, v] + bo[v]`. -/
def joint (e : Arr3 8 256 512) (p : Arr3 8 64 512) (wt : Arr2 512 300) (bo : Arr1 300) : Arr4 8 256 64 300 :=
  fun i => (∑ j : Fin 512, Ideal.tanh (e (ix3 (i 0) (i 1) j) + p (ix3 (i 0) (i 2) j)) * wt (ix2 j (i 3))) + bo (ix1 (i 3))

/-- The encoder projection at batch `b`, frame `t`, feature `j`. -/
def enc (X : Arr3 8 256 512) (We : Arr2 512 512) (be : Arr1 512) (b : Fin 8) (t : Fin 256) (j : Fin 512) : EReal :=
  (∑ d : Fin 512, X (ix3 b t d) * We (ix2 j d)) + be (ix1 j)

/-- The predictor projection at batch `b`, label position `u`, feature `j`. -/
def pred (P : Arr3 8 64 512) (Wp : Arr2 512 512) (bp : Arr1 512) (b : Fin 8) (u : Fin 64) (j : Fin 512) : EReal :=
  (∑ d : Fin 512, P (ix3 b u d) * Wp (ix2 j d)) + bp (ix1 j)

/-- The logits as one function of the eight arguments. -/
def G (X : Arr3 8 256 512) (P : Arr3 8 64 512) (We : Arr2 512 512) (be : Arr1 512) (Wp : Arr2 512 512) (bp : Arr1 512)
    (Wo : Arr2 300 512) (bo : Arr1 300) : Arr4 8 256 64 300 :=
  fun i => (∑ j : Fin 512, Ideal.tanh (enc X We be (i 0) (i 1) j + pred P Wp bp (i 0) (i 2) j) * Wo (ix2 (i 3) j)) + bo (ix1 (i 3))

end Cert.Joint

end
-- ==== Proof.KernelRun.lean ====
/-
  The idealized kernel program's run, with the result named.

  @main is three host stretches (reshapes and transposes) alternating with three kernel regions.  Running the
  segments in order from the launch memory, every unscoped buffer of the TensorCore ends at the contents the
  segments' fold `W6` gives it: a host stretch rewrites the buffers its operations write, a region rewrites its
  output array with what its grid points wrote back and leaves every other buffer alone.  So the result buffer ends
  at `W6` read at the result, and each argument buffer ends as launched.
-/
import proofs.«100111_j83305185673308_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the segments'
    fold leaves there, and the eight argument buffers hold what they were launched with. -/
theorem run_result : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.Relayout.lean ====
/-
  The kernel's arrangement of the network is the network.

  The kernel program flattens the encoder input `[8, 256, 512]` to 2048 rows and the predictor input `[8, 64, 512]` to
  512 rows (row `b · 256 + t`, resp. `b · 64 + u`), transposes each weight matrix so that the contraction axis comes
  first, runs the linear layer on the flat rows, un-flattens the two results and feeds them to the joint layer with
  the transposed output weights.  Read at an index, a flattening or un-flattening only renames the row, and a
  transposed matrix read at `(d, j)` is the stored matrix at `(j, d)`; so the composite is `Cert.Joint.G` entry by entry.
-/
import proofs.«100111_j83305185673308_1_alg».proof.Proof.Spec
import Idealize.ShloMosaic.Lib.Pipeline.Value
import Idealize.ShloMosaic.Lib.ValueIdx
import Idealize.ShloMosaic.Lib.ValueLayout

noncomputable section

namespace Cert.Joint

open Idealize.ShloMosaic Idealize.ShloMosaic.ValueIdx

/-- Row `b · n + t` of the flattened batch. -/
def flat {B n : Nat} (b : Fin B) (t : Fin n) : Fin (B * n) :=
  ⟨b.val * n + t.val, by
    have hb := b.isLt; have ht := t.isLt
    calc b.val * n + t.val < b.val * n + n := by omega
      _ = (b.val + 1) * n := by rw [Nat.add_mul, Nat.one_mul]
      _ ≤ B * n := Nat.mul_le_mul_right n hb⟩

/-- A `[B, n, 512]` array flattened to `[B · n, 512]`, read at row `b · n + t`. -/
theorem flatten_apply {B n R : Nat} (hR : R = B * n) (x : Arr3 B n 512) (h : (⟨3, ![B, n, 512]⟩ : Shape).ShapeCasts ⟨2, ![R, 512]⟩)
    (b : Fin B) (t : Fin n) (d : Fin 512) :
    shapeCast ⟨2, ![R, 512]⟩ x h (ix2 ((flat b t).cast hR.symm) d) = x (ix3 b t d) :=
  shapeCast_apply x h _ _ (by
    rw [Shape.rowMajor_val_three, Shape.rowMajor_val_two]
    rfl)

/-- A `[B · n, 512]` array un-flattened to `[B, n, 512]`, read at `(b, t)`. -/
theorem unflatten_apply {B n R : Nat} (hR : R = B * n) (x : Arr2 R 512) (h : (⟨2, ![R, 512]⟩ : Shape).ShapeCasts ⟨3, ![B, n, 512]⟩)
    (b : Fin B) (t : Fin n) (j : Fin 512) :
    shapeCast ⟨3, ![B, n, 512]⟩ x h (ix3 b t j) = x (ix2 ((flat b t).cast hR.symm) j) :=
  shapeCast_apply x h _ _ (by
    rw [Shape.rowMajor_val_two, Shape.rowMajor_val_three]
    rfl)

/-- A projection computed on the flattened rows with the transposed weights, un-flattened, is the projection. -/
theorem proj_apply {B n R : Nat} (hR : R = B * n) (x : Arr3 B n 512) (W : Arr2 512 512) (bias : Arr1 512)
    (h : (⟨3, ![B, n, 512]⟩ : Shape).ShapeCasts ⟨2, ![R, 512]⟩) (h' : (⟨2, ![R, 512]⟩ : Shape).ShapeCasts ⟨3, ![B, n, 512]⟩)
    (ht : (⟨2, ![512, 512]⟩ : Shape).Transposes [1, 0] ⟨2, ![512, 512]⟩) (b : Fin B) (t : Fin n) (j : Fin 512) :
    shapeCast ⟨3, ![B, n, 512]⟩ (lin (shapeCast ⟨2, ![R, 512]⟩ x h) (transpose ⟨2, ![512, 512]⟩ [1, 0] W ht) bias) h' (ix3 b t j)
      = (∑ d : Fin 512, x (ix3 b t d) * W (ix2 j d)) + bias (ix1 j) := by
  refine (unflatten_apply hR _ h' b t j).trans ?_
  show (∑ d : Fin 512, shapeCast ⟨2, ![R, 512]⟩ x h (ix2 ((flat b t).cast hR.symm) d) * transpose ⟨2, ![512, 512]⟩ [1, 0] W ht (ix2 d j)) + bias (ix1 j) = _
  refine congrArg (· + bias (ix1 j)) (Finset.sum_congr rfl fun d _ => ?_)
  rw [flatten_apply hR x h b t d, transpose_ix2_apply W ht d j]

/-- The joint layer of the two projections computed the kernel's way is `G`. -/
theorem joint_lin_eq_G (X : Arr3 8 256 512) (P : Arr3 8 64 512) (We : Arr2 512 512) (be : Arr1 512) (Wp : Arr2 512 512) (bp : Arr1 512)
    (Wo : Arr2 300 512) (bo : Arr1 300)
    (hX : (⟨3, ![8, 256, 512]⟩ : Shape).ShapeCasts ⟨2, ![2048, 512]⟩) (hX' : (⟨2, ![2048, 512]⟩ : Shape).ShapeCasts ⟨3, ![8, 256, 512]⟩)
    (hP : (⟨3, ![8, 64, 512]⟩ : Shape).ShapeCasts ⟨2, ![512, 512]⟩) (hP' : (⟨2, ![512, 512]⟩ : Shape).ShapeCasts ⟨3, ![8, 64, 512]⟩)
    (ht : (⟨2, ![512, 512]⟩ : Shape).Transposes [1, 0] ⟨2, ![512, 512]⟩) (hto : (⟨2, ![300, 512]⟩ : Shape).Transposes [1, 0] ⟨2, ![512, 300]⟩) :
    joint (shapeCast ⟨3, ![8, 256, 512]⟩ (lin (shapeCast ⟨2, ![2048, 512]⟩ X hX) (transpose ⟨2, ![512, 512]⟩ [1, 0] We ht) be) hX')
        (shapeCast ⟨3, ![8, 64, 512]⟩ (lin (shapeCast ⟨2, ![512, 512]⟩ P hP) (transpose ⟨2, ![512, 512]⟩ [1, 0] Wp ht) bp) hP')
        (transpose ⟨2, ![512, 300]⟩ [1, 0] Wo hto) bo
      = G X P We be Wp bp Wo bo := by
  funext i
  obtain ⟨b, t, u, v, rfl⟩ : ∃ (b : Fin 8) (t : Fin 256) (u : Fin 64) (v : Fin 300), i = ix4 b t u v := ⟨i 0, i 1, i 2, i 3, eq_ix4 i⟩
  show (∑ j : Fin 512, Ideal.tanh (shapeCast ⟨3, ![8, 256, 512]⟩ _ hX' (ix3 b t j) + shapeCast ⟨3, ![8, 64, 512]⟩ _ hP' (ix3 b u j))
        * transpose ⟨2, ![512, 300]⟩ [1, 0] Wo hto (ix2 j v)) + bo (ix1 v)
      = (∑ j : Fin 512, Ideal.tanh (enc X We be b t j + pred P Wp bp b u j) * Wo (ix2 v j)) + bo (ix1 v)
  refine congrArg (· + bo (ix1 v)) (Finset.sum_congr rfl fun j _ => ?_)
  rw [proj_apply (B := 8) (n := 256) (R := 2048) rfl X We be hX hX' ht b t j, proj_apply (B := 8) (n := 64) (R := 512) rfl P Wp bp hP hP' ht b u j,
    transpose_ix2_apply Wo hto j v]
  rfl

end Cert.Joint

end
-- ==== Proof.LinearBlock.lean ====
/-
  The linear-layer kernel's stored value, entry by entry.

  At the ideal instance the body of the linear kernel stores, at row `p` and column `q` of its output block,
    Σ_d  x[p, d] · w[d, q] + bias[q]
  where `x` is the block of input rows, `w` the whole weight matrix (already contraction axis first) and
  `bias` the whole bias vector.  The kernel is launched twice, on blocks of 256 rows and of 64 rows.
-/
import proofs.«100111_j83305185673308_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearBlock

open Cert.KernelIdeal Cert.KernelIdeal.Gen Idealize.ShloMosaic Idealize.ShloMosaic.TcCoe Idealize.SL.Sem Idealize.ShloMosaic.ValueIdx

/-! ## The launch with blocks of 256 rows -/

theorem lhs0_0 (i : S256x512.Idx) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs0_1 (i : S256x512.Idx) (q : dot_S256x512_S512x512_S256x512_1_0_0_1_n_n.contr.Idx) : (dot_S256x512_S512x512_S256x512_1_0_0_1_n_n.lhsIdx i q 1).val = (q ⟨0, by decide⟩).val :=
  dot_S256x512_S512x512_S256x512_1_0_0_1_n_n.lhsIdx_val_of_single rfl i q
theorem rhs0_0 (i : S256x512.Idx) (q : dot_S256x512_S512x512_S256x512_1_0_0_1_n_n.contr.Idx) : (dot_S256x512_S512x512_S256x512_1_0_0_1_n_n.rhsIdx i q 0).val = (q ⟨0, by decide⟩).val :=
  dot_S256x512_S512x512_S256x512_1_0_0_1_n_n.rhsIdx_val_of_single rfl i q
theorem rhs0_1 (i : S256x512.Idx) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The matrix product into a zero accumulator, at row `p` and column `q`: the sum over the contracted axis of
    the left operand's row `p` against the right operand's column `q`. -/
theorem matmul0_apply (a : FVec Ideal S256x512 .bf16) (b : FVec Ideal S512x512 .bf16) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) := by
  refine (Ideal.matmul_constant_zero_apply dot_S256x512_S512x512_S256x512_1_0_0_1_n_n none a b (ix2 p q)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 p q) ((contrEquiv1 dot_S256x512_S512x512_S256x512_1_0_0_1_n_n 512 rfl rfl).symm k) = ix2 p k := funext fun a => Fin.ext (by
    match a with
    | ⟨0, _⟩ => exact lhs0_0 _ _
    | ⟨1, _⟩ => exact (lhs0_1 _ _).trans hk)
  have er : dot_S256x512_S512x512_S256x512_1_0_0_1_n_n.rhsIdx (ix2 p q) ((contrEquiv1 dot_S256x512_S512x512_S256x512_1_0_0_1_n_n 512 rfl rfl).symm k) = ix2 k q := funext fun a => Fin.ext (by
    match a with
    | ⟨0, _⟩ => exact (rhs0_0 _ _).trans hk
    | ⟨1, _⟩ => exact rhs0_1 _ _)
  rw [el, er]

/-- What the body stores at row `p`, column `q` of its block: the row of the input block against the column of the
    weight block, plus the bias entry of that column.  The two roundings on the way into the product are the identity
    on extended reals, the two same-shape casts are the identity, and the bias row is repeated down the rows. -/
theorem pay0_apply (x0 : Vec Ideal S256x512 .f32) (x1 : Vec Ideal S512x512 .f32) (x2 : Vec Ideal S512 .f32) (p : Fin 256) (q : Fin 512) :
    k0_pay1 x0 x1 x2 (ix2 p q) = (∑ d : Fin 512, x0 (ix2 p d) * x1 (ix2 d q)) + x2 (ix1 q) := by
  unfold k0_pay1
  simp only [shapeCast_self]
  refine congrArg₂ (· + ·) ?_ ?_
  · exact matmul0_apply _ _ p q
  · exact (broadcastTo_1b_ab_apply _ _ p q).trans (shapeCast_a_1a_apply x2 _ 0 q)

/-! ## The launch with blocks of 64 rows -/

theorem lhs1_0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhs1_1 (i : S64x512.Idx) (q : dot_S64x512_S512x512_S64x512_1_0_0_1_n_n.contr.Idx) : (dot_S64x512_S512x512_S64x512_1_0_0_1_n_n.lhsIdx i q 1).val = (q ⟨0, by decide⟩).val :=
  dot_S64x512_S512x512_S64x512_1_0_0_1_n_n.lhsIdx_val_of_single rfl i q
theorem rhs1_0 (i : S64x512.Idx) (q : dot_S64x512_S512x512_S64x512_1_0_0_1_n_n.contr.Idx) : (dot_S64x512_S512x512_S64x512_1_0_0_1_n_n.rhsIdx i q 0).val = (q ⟨0, by decide⟩).val :=
  dot_S64x512_S512x512_S64x512_1_0_0_1_n_n.rhsIdx_val_of_single rfl i q
theorem rhs1_1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The matrix product into a zero accumulator, at row `p` and column `q`: the sum over the contracted axis of
    the left operand's row `p` against the right operand's column `q`. -/
theorem matmul1_apply (a : FVec Ideal S64x512 .bf16) (b : FVec Ideal S512x512 .bf16) (p : Fin 64) (q : Fin 512) :
    matmul dot_S64x512_S512x512_S64x512_1_0_0_1_n_n none a b (constant (F := Ideal) S64x512 .f32 0x00000000#32) (ix2 p q)
      = ∑ k : Fin 512, a (ix2 p k) * b (ix2 k q) := by
  refine (Ideal.matmul_constant_zero_apply dot_S64x512_S512x512_S64x512_1_0_0_1_n_n none a b (ix2 p q)).trans ?_
  rw [← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 p q) ((contrEquiv1 dot_S64x512_S512x512_S64x512_1_0_0_1_n_n 512 rfl rfl).symm k) = ix2 p k := funext fun a => Fin.ext (by
    match a with
    | ⟨0, _⟩ => exact lhs1_0 _ _
    | ⟨1, _⟩ => exact (lhs1_1 _ _).trans hk)
  have er : dot_S64x512_S512x512_S64x512_1_0_0_1_n_n.rhsIdx (ix2 p q) ((contrEquiv1 dot_S64x512_S512x512_S64x512_1_0_0_1_n_n 512 rfl rfl).symm k) = ix2 k q := funext fun a => Fin.ext (by
    match a with
    | ⟨0, _⟩ => exact (rhs1_0 _ _).trans hk
    | ⟨1, _⟩ => exact rhs1_1 _ _)
  rw [el, er]

/-- What the body stores at row `p`, column `q` of its block: the row of the input block against the column of the
    weight block, plus the bias entry of that column.  The two roundings on the way into the product are the identity
    on extended reals, the two same-shape casts are the identity, and the bias row is repeated down the rows. -/
theorem pay1_apply (x0 : Vec Ideal S64x512 .f32) (x1 : Vec Ideal S512x512 .f32) (x2 : Vec Ideal S512 .f32) (p : Fin 64) (q : Fin 512) :
    k1_pay1 x0 x1 x2 (ix2 p q) = (∑ d : Fin 512, x0 (ix2 p d) * x1 (ix2 d q)) + x2 (ix1 q) := by
  unfold k1_pay1
  simp only [shapeCast_self]
  refine congrArg₂ (· + ·) ?_ ?_
  · exact matmul1_apply _ _ p q
  · exact (broadcastTo_1b_ab_apply _ _ p q).trans (shapeCast_a_1a_apply x2 _ 0 q)

end Cert.KernelIdeal.LinearBlock

end
-- ==== Proof.LinearArray.lean ====
/-
  The two linear regions' output arrays.

  Each grid point of a linear region writes back a block of rows; block `t` holds, entry by entry, the linear layer
  of the input rows of block `t`.  Since the weight matrix and the bias are taken whole at every point, each block
  is a block of ONE function of the whole arrays — `Cert.Joint.lin` of the input rows, the weights and the bias as
  the region finds them — and the blocks tile the output, so the output array ends as that function.
  Stated for any contents `V` the region is entered with.
-/
import proofs.«100111_j83305185673308_1_alg».proof.Proof.Gen.KernelIdeal.Frame
import proofs.«100111_j83305185673308_1_alg».proof.Proof.Spec
import proofs.«100111_j83305185673308_1_alg».proof.Proof.LinearBlock
import Idealize.ShloMosaic.Lib.Pipeline.Value
import Idealize.ShloMosaic.Lib.ValueIdx

set_option maxRecDepth 16384

noncomputable section

namespace Cert.KernelIdeal.LinearArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The launch on blocks of 256 rows: 2048 rows in 8 blocks -/

/-- The printed index maps, decided once over the grid: the input rows move with the output rows, the weight matrix and
    the bias are taken whole, and the output's block index on the row axis is the grid coordinate. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 7 :=
  (by decide +kernel : ∀ t : Fin grid0.N, _)

/-- Every block of rows is some grid point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What grid point `t` writes back is block `t` of the linear layer of the arrays the region finds. -/
theorem flushed0 (c : Dev nD) (t : Fin cfg0.N) :
    (dat0 V c).flushed 3 t
      = ((cfg0.win 3).blk t).view.read (Elt Ideal) (Cert.Joint.lin (V c main_v0) (V c main_v2) (V c main_arg3)) := by
  show (cfg0.win 3).cut (grid0.coords t) ((dat0 V c).after 3 t) = _
  rw [after0_3]
  unfold out0_3
  rw [View.canon_unit_zero hz2]
  simp only [View.ld_unit_zero (S := S256x512) hz2, View.ld_unit_zero (S := S512x512) hz2, View.ld_unit_zero (S := S512) hz1]
  obtain ⟨e0, e1, e2, e3, e4, e5, e6⟩ := idx_facts0 t
  funext y
  obtain ⟨p, q, rfl⟩ : ∃ (p : Fin 256) (q : Fin 512), y = ix2 p q := ⟨y 0, y 1, eq_ix2 y⟩
  show k0_pay1 (iblk0 V c 0 t) (iblk0 V c 1 t) (iblk0 V c 2 t) (ix2 p q)
      = Cert.Joint.lin (V c main_v0) (V c main_v2) (V c main_arg3) (((cfg0.win 3).blk t).view.emb (ix2 p q))
  refine (LinearBlock.pay0_apply (iblk0 V c 0 t) (iblk0 V c 1 t) (iblk0 V c 2 t) p q).trans ?_
  unfold Cert.Joint.lin
  refine congrArg₂ (· + ·) (Finset.sum_congr rfl fun d _ => congrArg₂ (· * ·) ?_ ?_) ?_
  · show V c main_v0 (((cfg0.win 0).blk t).view.emb (ix2 p d)) = V c main_v0 _
    refine congrArg (V c main_v0) (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 512 + 1 * d.val = d.val; omega
  · show V c main_v2 (((cfg0.win 1).blk t).view.emb (ix2 d q)) = V c main_v2 _
    refine congrArg (V c main_v2) (funext fun a => Fin.ext ?_)
    match a with
    | ⟨0, _⟩ => show win0_1.index t (0 : Fin 2) * 512 + 1 * d.val = d.val; omega
    | ⟨1, _⟩ => show win0_1.index t (1 : Fin 2) * 512 + 1 * q.val = win0_3.index t (1 : Fin 2) * 512 + 1 * q.val; omega
  · show V c main_arg3 (((cfg0.win 2).blk t).view.emb (ix1 q)) = V c main_arg3 _
    refine congrArg (V c main_arg3) (funext fun a => Fin.ext ?_)
    match a with
    | ⟨0, _⟩ => show win0_2.index t (0 : Fin 1) * 512 + 1 * q.val = win0_3.index t (1 : Fin 2) * 512 + 1 * q.val; omega

/-- An index of the output array is in point `t`'s block iff each coordinate is in the block's range on its axis. -/
theorem mem_blk0 (t : Fin cfg0.N) (i : S2048x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v3).slice (win0_3.rect t)).set ↔ _
  rw [View.set_slice_whole, Rect.mem_set_unit]
  exact Iff.rfl

/-- Row `r` of the output is written by the point whose block index is `r / 256`: the blocks cover the array. -/
theorem cover0 (i : S2048x512.Idx) : ∃ t : Fin cfg0.N, (cfg0.win 3).flush t = true ∧ i ∈ ((cfg0.win 3).blk t).view.set := by
  have hi0 : (i 0).val < 2048 := (i 0).isLt
  have hi1 : (i 1).val < 512 := (i 1).isLt
  obtain ⟨t, ht⟩ := idx_onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- The output array after the region: the linear layer of the arrays the region finds, whole. -/
theorem final0 (c : Dev nD) :
    (dat0 V c).arrAt 3 cfg0.N = Cert.Joint.lin (V c main_v0) (V c main_v2) (V c main_arg3) :=
  (dat0 V c).arrAt_eq_of_cover 3 _ (fun t _ => flushed0 V c t) (cover0)

/-! ## The launch on blocks of 64 rows: 512 rows in 8 blocks -/

/-- The printed index maps, decided once over the grid: the input rows move with the output rows, the weight matrix and
    the bias are taken whole, and the output's block index on the row axis is the grid coordinate. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 7 :=
  (by decide +kernel : ∀ t : Fin grid1.N, _)

/-- Every block of rows is some grid point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- What grid point `t` writes back is block `t` of the linear layer of the arrays the region finds. -/
theorem flushed1 (c : Dev nD) (t : Fin cfg1.N) :
    (dat1 V c).flushed 3 t
      = ((cfg1.win 3).blk t).view.read (Elt Ideal) (Cert.Joint.lin (V c main_v1) (V c main_v5) (V c main_arg5)) := by
  show (cfg1.win 3).cut (grid1.coords t) ((dat1 V c).after 3 t) = _
  rw [after1_3]
  unfold out1_3
  rw [View.canon_unit_zero hz2]
  simp only [View.ld_unit_zero (S := S64x512) hz2, View.ld_unit_zero (S := S512x512) hz2, View.ld_unit_zero (S := S512) hz1]
  obtain ⟨e0, e1, e2, e3, e4, e5, e6⟩ := idx_facts1 t
  funext y
  obtain ⟨p, q, rfl⟩ : ∃ (p : Fin 64) (q : Fin 512), y = ix2 p q := ⟨y 0, y 1, eq_ix2 y⟩
  show k1_pay1 (iblk1 V c 0 t) (iblk1 V c 1 t) (iblk1 V c 2 t) (ix2 p q)
      = Cert.Joint.lin (V c main_v1) (V c main_v5) (V c main_arg5) (((cfg1.win 3).blk t).view.emb (ix2 p q))
  refine (LinearBlock.pay1_apply (iblk1 V c 0 t) (iblk1 V c 1 t) (iblk1 V c 2 t) p q).trans ?_
  unfold Cert.Joint.lin
  refine congrArg₂ (· + ·) (Finset.sum_congr rfl fun d _ => congrArg₂ (· * ·) ?_ ?_) ?_
  · show V c main_v1 (((cfg1.win 0).blk t).view.emb (ix2 p d)) = V c main_v1 _
    refine congrArg (V c main_v1) (funext fun a => Fin.ext ?_)
    match a with
    | ⟨0, _⟩ => show win1_0.index t (0 : Fin 2) * 64 + 1 * p.val = win1_3.index t (0 : Fin 2) * 64 + 1 * p.val; omega
    | ⟨1, _⟩ => show win1_0.index t (1 : Fin 2) * 512 + 1 * d.val = d.val; omega
  · show V c main_v5 (((cfg1.win 1).blk t).view.emb (ix2 d q)) = V c main_v5 _
    refine congrArg (V c main_v5) (funext fun a => Fin.ext ?_)
    match a with
    | ⟨0, _⟩ => show win1_1.index t (0 : Fin 2) * 512 + 1 * d.val = d.val; omega
    | ⟨1, _⟩ => show win1_1.index t (1 : Fin 2) * 512 + 1 * q.val = win1_3.index t (1 : Fin 2) * 512 + 1 * q.val; omega
  · show V c main_arg5 (((cfg1.win 2).blk t).view.emb (ix1 q)) = V c main_arg5 _
    refine congrArg (V c main_arg5) (funext fun a => Fin.ext ?_)
    match a with
    | ⟨0, _⟩ => show win1_2.index t (0 : Fin 1) * 512 + 1 * q.val = win1_3.index t (1 : Fin 2) * 512 + 1 * q.val; omega

/-- An index of the output array is in point `t`'s block iff each coordinate is in the block's range on its axis. -/
theorem mem_blk1 (t : Fin cfg1.N) (i : S512x512.Idx) :
    i ∈ ((cfg1.win 3).blk t).view.set ↔ ∀ a : Fin 2, win1_3.index t a * S64x512.size a ≤ (i a).val ∧ (i a).val < win1_3.index t a * S64x512.size a + S64x512.size a := by
  show i ∈ ((View.whole main_v6).slice (win1_3.rect t)).set ↔ _
  rw [View.set_slice_whole, Rect.mem_set_unit]
  exact Iff.rfl

/-- Row `r` of the output is written by the point whose block index is `r / 64`: the blocks cover the array. -/
theorem cover1 (i : S512x512.Idx) : ∃ t : Fin cfg1.N, (cfg1.win 3).flush t = true ∧ i ∈ ((cfg1.win 3).blk t).view.set := by
  have hi0 : (i 0).val < 512 := (i 0).isLt
  have hi1 : (i 1).val < 512 := (i 1).isLt
  obtain ⟨t, ht⟩ := idx_onto1 ⟨(i 0).val / 64, by omega⟩
  have q0 : win1_3.index t (0 : Fin 2) = (i 0).val / 64 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 64 ≤ (i 0).val ∧ (i 0).val < win1_3.index t (0 : Fin 2) * 64 + 64; omega
  | ⟨1, _⟩ => show win1_3.index t (1 : Fin 2) * 512 ≤ (i 1).val ∧ (i 1).val < win1_3.index t (1 : Fin 2) * 512 + 512; omega

/-- The output array after the region: the linear layer of the arrays the region finds, whole. -/
theorem final1 (c : Dev nD) :
    (dat1 V c).arrAt 3 cfg1.N = Cert.Joint.lin (V c main_v1) (V c main_v5) (V c main_arg5) :=
  (dat1 V c).arrAt_eq_of_cover 3 _ (fun t _ => flushed1 V c t) (cover1)

end Cert.KernelIdeal.LinearArray

end
-- ==== Proof.JointBlock.lean ====
/-
  The joint kernel's stored value, entry by entry.

  One grid point holds 32 encoder rows `e[t, ·]` and 64 predictor rows `p[u, ·]` of one batch element.  The body
  adds every pair of rows, applies `tanh`, lays the 32 × 64 pairs out as 2048 rows (pair `(t, u)` is row
  `t · 64 + u`), multiplies by the 512 × 300 weight block, adds the bias row and lays the 2048 rows out again
  as 32 × 64.  At the ideal instance the entry stored for `(t, u, v)` is therefore
    Σ_j tanh (e[t, j] + p[u, j]) · w[j, v] + bias[v].
-/
import proofs.«100111_j83305185673308_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.JointBlock

open Cert.KernelIdeal Cert.KernelIdeal.Gen Idealize.ShloMosaic Idealize.ShloMosaic.TcCoe Idealize.SL.Sem Idealize.ShloMosaic.ValueIdx

/-- The row that the pair (encoder row `t`, predictor row `u`) occupies among the 2048 folded rows. -/
def row (t : Fin 32) (u : Fin 64) : Fin 2048 := ⟨t.val * 64 + u.val, by have := t.isLt; have := u.isLt; omega⟩

theorem lhs2_0 (i : S2048x300.Idx) (q : dot_S2048x512_S512x300_S2048x300_1_0_0_1_n_n.contr.Idx) : (dot_S2048x512_S512x300_S2048x300_1_0_0_1_n_n.lhsIdx i q 0).val = (i 0).val := by
  unfold DotDims.lhsIdx
  rw [dif_neg (show ¬(0 : Fin S2048x512.rank) ∈ dot_S2048x512_S512x300_S2048x300_1_0_0_1_n_n.lhsBatch by decide), dif_pos (show (0 : Fin S2048x512.rank) ∈ dot_S2048x512_S512x300_S2048x300_1_0_0_1_n_n.lhsNonContracting by decide)]
  rfl
theorem lhs2_1 (i : S2048x300.Idx) (q : dot_S2048x512_S512x300_S2048x300_1_0_0_1_n_n.contr.Idx) : (dot_S2048x512_S512x300_S2048x300_1_0_0_1_n_n.lhsIdx i q 1).val = (q ⟨0, by decide⟩).val :=
  dot_S2048x512_S512x300_S2048x300_1_0_0_1_n_n.lhsIdx_val_of_single rfl i q
theorem rhs2_0 (i : S2048x300.Idx) (q : dot_S2048x512_S512x300_S2048x300_1_0_0_1_n_n.contr.Idx) : (dot_S2048x512_S512x300_S2048x300_1_0_0_1_n_n.rhsIdx i q 0).val = (q ⟨0, by decide⟩).val :=
  dot_S2048x512_S512x300_S2048x300_1_0_0_1_n_n.rhsIdx_val_of_single rfl i q
theorem rhs2_1 (i : S2048x300.Idx) (q : dot_S2048x512_S512x300_S2048x300_1_0_0_1_n_n.contr.Idx) : (dot_S2048x512_S512x300_S2048x300_1_0_0_1_n_n.rhsIdx i q 1).val = (i 1).val := by
  unfold DotDims.rhsIdx
  rw [dif_neg (show ¬(1 : Fin S512x300.rank) ∈ dot_S2048x512_S512x300_S2048x300_1_0_0_1_n_n.rhsBatch by decide), dif_pos (show (1 : Fin S512x300.rank) ∈ dot_S2048x512_S512x300_S2048x300_1_0_0_1_n_n.rhsNonContracting by decide)]
  rfl

/-- The matrix product into a zero accumulator, at row `p` and column `q`. -/
theorem matmul2_apply (a : FVec Ideal S2048x512 .bf16) (b : FVec Ideal S512x300 .bf16) (p : Fin 2048) (q : Fin 300) :
    matmul dot_S2048x512_S512x300_S2048x300_1_0_0_1_n_n none a b (constant (F := Ideal) S2048x300 .f32 0x00000000#32) (ix2 p q)
      = ∑ k : Fin 512, a (ix2 p k) * b (ix2 k q) := by
  refine (Ideal.matmul_constant_zero_apply dot_S2048x512_S512x300_S2048x300_1_0_0_1_n_n none a b (ix2 p q)).trans ?_
  rw [← Equiv.sum_comp (contrEquiv1 dot_S2048x512_S512x300_S2048x300_1_0_0_1_n_n 512 rfl rfl).symm]
  refine Finset.sum_congr rfl fun k _ => ?_
  have hk := contrEquiv1_symm_val dot_S2048x512_S512x300_S2048x300_1_0_0_1_n_n 512 rfl rfl k
  have el : dot_S2048x512_S512x300_S2048x300_1_0_0_1_n_n.lhsIdx (ix2 p q) ((contrEquiv1 dot_S2048x512_S512x300_S2048x300_1_0_0_1_n_n 512 rfl rfl).symm k) = ix2 p k := funext fun a => Fin.ext (by
    match a with
    | ⟨0, _⟩ => exact lhs2_0 _ _
    | ⟨1, _⟩ => exact (lhs2_1 _ _).trans hk)
  have er : dot_S2048x512_S512x300_S2048x300_1_0_0_1_n_n.rhsIdx (ix2 p q) ((contrEquiv1 dot_S2048x512_S512x300_S2048x300_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-- An encoder row repeated along the predictor axis: `[32, 1, 512]` broadcast to `[32, 64, 512]`. -/
theorem bcast_enc_apply (y : FVec Ideal S32x1x512 .f32) (h : S32x1x512.Broadcasts S32x64x512) (t : Fin 32) (u : Fin 64) (j : Fin 512) :
    broadcastTo S32x64x512 y h (ix3 t u j) = y (ix3 t (0 : Fin 1) j) :=
  broadcastTo_apply y h (ix3 t u j) (ix3 t (0 : Fin 1) j) fun a => match a with
    | ⟨0, _⟩ => by show t.val = if (32 : Nat) = 1 then 0 else t.val; rw [if_neg (by decide)]
    | ⟨1, _⟩ => by show 0 = if (1 : Nat) = 1 then 0 else u.val; rw [if_pos rfl]
    | ⟨2, _⟩ => by show j.val = if (512 : Nat) = 1 then 0 else j.val; rw [if_neg (by decide)]

/-- A predictor row repeated along the encoder axis: `[1, 64, 512]` broadcast to `[32, 64, 512]`. -/
theorem bcast_pred_apply (y : FVec Ideal S1x64x512 .f32) (h : S1x64x512.Broadcasts S32x64x512) (t : Fin 32) (u : Fin 64) (j : Fin 512) :
    broadcastTo S32x64x512 y h (ix3 t u j) = y (ix3 (0 : Fin 1) u j) :=
  broadcastTo_apply y h (ix3 t u j) (ix3 (0 : Fin 1) u j) fun a => match a with
    | ⟨0, _⟩ => by show 0 = if (1 : Nat) = 1 then 0 else t.val; rw [if_pos rfl]
    | ⟨1, _⟩ => by show u.val = if (64 : Nat) = 1 then 0 else u.val; rw [if_neg (by decide)]
    | ⟨2, _⟩ => by show j.val = if (512 : Nat) = 1 then 0 else j.val; rw [if_neg (by decide)]

/-- A unit middle axis added to the encoder rows: `[32, 512]` cast to `[32, 1, 512]`. -/
theorem cast_enc_apply (y : FVec Ideal S32x512 .f32) (h : S32x512.ShapeCasts S32x1x512) (t : Fin 32) (z : Fin 1) (j : Fin 512) :
    shapeCast S32x1x512 y h (ix3 t z j) = y (ix2 t j) :=
  shapeCast_apply y h (ix3 t z j) (ix2 t j) (by
    have hz : z.val = 0 := by omega
    rw [Shape.rowMajor_val_two, Shape.rowMajor_val_three]
    show t.val * 512 + j.val = (t.val * 1 + z.val) * 512 + j.val
    rw [hz]; omega)

/-- The pairs folded into rows: `[32, 64, 512]` cast to `[2048, 512]`, pair `(t, u)` at row `t · 64 + u`. -/
theorem fold_apply (y : FVec Ideal S32x64x512 .f32) (h : S32x64x512.ShapeCasts S2048x512) (t : Fin 32) (u : Fin 64) (j : Fin 512) :
    shapeCast S2048x512 y h (ix2 (row t u) j) = y (ix3 t u j) :=
  shapeCast_apply y h (ix2 (row t u) j) (ix3 t u j) (by
    rw [Shape.rowMajor_val_three, Shape.rowMajor_val_two]
    rfl)

/-- The rows unfolded into pairs again: `[2048, 300]` cast to `[32, 64, 300]`. -/
theorem unfold_apply (y : FVec Ideal S2048x300 .f32) (h : S2048x300.ShapeCasts S32x64x300) (t : Fin 32) (u : Fin 64) (v : Fin 300) :
    shapeCast S32x64x300 y h (ix3 t u v) = y (ix2 (row t u) v) :=
  shapeCast_apply y h (ix3 t u v) (ix2 (row t u) v) (by
    rw [Shape.rowMajor_val_two, Shape.rowMajor_val_three]
    rfl)

/-- What the body stores for encoder row `t`, predictor row `u` and logit `v` of its block. -/
theorem pay2_apply (x0 : Vec Ideal S1x32x512 .f32) (x1 : Vec Ideal S1x64x512 .f32) (x2 : Vec Ideal S512x300 .f32) (x3 : Vec Ideal S300 .f32)
    (z : Fin 1) (t : Fin 32) (u : Fin 64) (v : Fin 300) :
    k2_pay1 x0 x1 x2 x3 (ix4 z t u v)
      = (∑ j : Fin 512, Ideal.tanh (x0 (ix3 (0 : Fin 1) t j) + x1 (ix3 (0 : Fin 1) u j)) * x2 (ix2 j v)) + x3 (ix1 v) := by
  unfold k2_pay1
  simp only [shapeCast_self]
  refine (shapeCast_abc_1abc_apply _ _ z t u v).trans ?_
  refine (unfold_apply _ _ t u v).trans ?_
  refine congrArg₂ (· + ·) ?_ ?_
  · refine (matmul2_apply _ _ (row t u) v).trans ?_
    refine Finset.sum_congr rfl fun j _ => ?_
    refine congrArg₂ (· * ·) ?_ rfl
    refine (truncf_apply (ψ := .bf16) (φ := .f32) (s := S2048x512) _ _ (ix2 (row t u) j)).trans ?_
    refine (fold_apply _ _ t u j).trans ?_
    refine congrArg Ideal.tanh (congrArg₂ (· + ·) ?_ ?_)
    · exact (bcast_enc_apply _ _ t u j).trans ((cast_enc_apply _ _ t 0 j).trans (shapeCast_1ab_ab_apply x0 _ t j))
    · exact (bcast_pred_apply _ _ t u j).trans ((shapeCast_ab_1ab_apply _ _ 0 u j).trans (shapeCast_1ab_ab_apply x1 _ u j))
  · exact (broadcastTo_1b_ab_apply _ _ (row t u) v).trans (shapeCast_a_1a_apply x3 _ 0 v)

end Cert.KernelIdeal.JointBlock

end
-- ==== Proof.JointArray.lean ====
/-
  The joint region's output array.

  Grid point `(b, s)` holds encoder rows `32 s … 32 s + 31` and all 64 predictor rows of batch element `b`, the whole
  weight matrix and the whole bias, and writes back the block `[b, 32 s … 32 s + 31, ·, ·]` of the logits.  Entry by
  entry that block is a block of ONE function of the whole arrays — `Cert.Joint.joint` of the encoder rows, predictor
  rows, weights and bias as the region finds them — and the 8 × 8 blocks tile the output, so the output array ends as
  that function.  Stated for any contents `V` the region is entered with.
-/
import proofs.«100111_j83305185673308_1_alg».proof.Proof.Gen.KernelIdeal.Frame
import proofs.«100111_j83305185673308_1_alg».proof.Proof.Spec
import proofs.«100111_j83305185673308_1_alg».proof.Proof.JointBlock
import Idealize.ShloMosaic.Lib.Pipeline.Value
import Idealize.ShloMosaic.Lib.ValueIdx

set_option maxRecDepth 16384

noncomputable section

namespace Cert.KernelIdeal.JointArray

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the grid: the encoder block moves with the output block on the batch and
    frame axes, the predictor block with it on the batch axis only, the weights and the bias are taken whole. -/
theorem idx_facts2 : ∀ t : Fin cfg2.N, win2_0.index t (0 : Fin 3) = win2_4.index t (0 : Fin 4)
    ∧ win2_0.index t (1 : Fin 3) = win2_4.index t (1 : Fin 4)
    ∧ win2_0.index t (2 : Fin 3) = 0
    ∧ win2_1.index t (0 : Fin 3) = win2_4.index t (0 : Fin 4)
    ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0
    ∧ win2_4.index t (2 : Fin 4) = 0 ∧ win2_4.index t (3 : Fin 4) = 0 :=
  (by decide +kernel : ∀ t : Fin grid2.N, _)

/-- Every (batch element, block of frames) is some grid point's. -/
theorem idx_onto2 : ∀ (q0 : Fin 8) (q1 : Fin 8), ∃ t : Fin cfg2.N, win2_4.index t = ![q0.val, q1.val, 0, 0] :=
  (by decide +kernel : ∀ (q0 : Fin 8) (q1 : Fin 8), ∃ t : Fin grid2.N, win2_4.index t = ![q0.val, q1.val, 0, 0])

/-- What grid point `t` writes back is block `t` of the joint layer of the arrays the region finds. -/
theorem flushed2 (c : Dev nD) (t : Fin cfg2.N) :
    (dat2 V c).flushed 4 t
      = ((cfg2.win 4).blk t).view.read (Elt Ideal) (Cert.Joint.joint (V c main_v4) (V c main_v7) (V c main_v8) (V c main_arg7)) := by
  show (cfg2.win 4).cut (grid2.coords t) ((dat2 V c).after 4 t) = _
  rw [after2_4]
  unfold out2_4
  rw [View.canon_unit_zero hz4]
  simp only [View.ld_unit_zero (S := S1x32x512) hz3, View.ld_unit_zero (S := S1x64x512) hz3, View.ld_unit_zero (S := S512x300) hz2, View.ld_unit_zero (S := S300) hz1]
  obtain ⟨e0, e1, e2, e3, e4, e5, e6, e7, e8, e9, e10⟩ := idx_facts2 t
  funext y
  obtain ⟨z, s, u, v, rfl⟩ : ∃ (z : Fin 1) (s : Fin 32) (u : Fin 64) (v : Fin 300), y = ix4 z s u v := ⟨y 0, y 1, y 2, y 3, eq_ix4 y⟩
  have hz : z.val = 0 := by omega
  show k2_pay1 (iblk2 V c 0 t) (iblk2 V c 1 t) (iblk2 V c 2 t) (iblk2 V c 3 t) (ix4 z s u v)
      = Cert.Joint.joint (V c main_v4) (V c main_v7) (V c main_v8) (V c main_arg7) (((cfg2.win 4).blk t).view.emb (ix4 z s u v))
  refine (JointBlock.pay2_apply (iblk2 V c 0 t) (iblk2 V c 1 t) (iblk2 V c 2 t) (iblk2 V c 3 t) z s u v).trans ?_
  unfold Cert.Joint.joint
  refine congrArg₂ (· + ·) (Finset.sum_congr rfl fun j _ => congrArg₂ (· * ·) (congrArg Ideal.tanh (congrArg₂ (· + ·) ?_ ?_)) ?_) ?_
  · show V c main_v4 (((cfg2.win 0).blk t).view.emb (ix3 (0 : Fin 1) s j)) = V c main_v4 _
    refine congrArg (V c main_v4) (funext fun a => Fin.ext ?_)
    match a with
    | ⟨0, _⟩ => show win2_0.index t (0 : Fin 3) * 1 + 1 * 0 = win2_4.index t (0 : Fin 4) * 1 + 1 * z.val; omega
    | ⟨1, _⟩ => show win2_0.index t (1 : Fin 3) * 32 + 1 * s.val = win2_4.index t (1 : Fin 4) * 32 + 1 * s.val; omega
    | ⟨2, _⟩ => show win2_0.index t (2 : Fin 3) * 512 + 1 * j.val = j.val; omega
  · show V c main_v7 (((cfg2.win 1).blk t).view.emb (ix3 (0 : Fin 1) u j)) = V c main_v7 _
    refine congrArg (V c main_v7) (funext fun a => Fin.ext ?_)
    match a with
    | ⟨0, _⟩ => show win2_1.index t (0 : Fin 3) * 1 + 1 * 0 = win2_4.index t (0 : Fin 4) * 1 + 1 * z.val; omega
    | ⟨1, _⟩ => show win2_1.index t (1 : Fin 3) * 64 + 1 * u.val = win2_4.index t (2 : Fin 4) * 64 + 1 * u.val; omega
    | ⟨2, _⟩ => show win2_1.index t (2 : Fin 3) * 512 + 1 * j.val = j.val; omega
  · show V c main_v8 (((cfg2.win 2).blk t).view.emb (ix2 j v)) = V c main_v8 _
    refine congrArg (V c main_v8) (funext fun a => Fin.ext ?_)
    match a with
    | ⟨0, _⟩ => show win2_2.index t (0 : Fin 2) * 512 + 1 * j.val = j.val; omega
    | ⟨1, _⟩ => show win2_2.index t (1 : Fin 2) * 300 + 1 * v.val = win2_4.index t (3 : Fin 4) * 300 + 1 * v.val; omega
  · show V c main_arg7 (((cfg2.win 3).blk t).view.emb (ix1 v)) = V c main_arg7 _
    refine congrArg (V c main_arg7) (funext fun a => Fin.ext ?_)
    match a with
    | ⟨0, _⟩ => show win2_3.index t (0 : Fin 1) * 300 + 1 * v.val = win2_4.index t (3 : Fin 4) * 300 + 1 * v.val; omega

/-- An index of the output array is in point `t`'s block iff each coordinate is in the block's range on its axis. -/
theorem mem_blk2 (t : Fin cfg2.N) (i : S8x256x64x300.Idx) :
    i ∈ ((cfg2.win 4).blk t).view.set ↔ ∀ a : Fin 4, win2_4.index t a * S1x32x64x300.size a ≤ (i a).val ∧ (i a).val < win2_4.index t a * S1x32x64x300.size a + S1x32x64x300.size a := by
  show i ∈ ((View.whole main_v9).slice (win2_4.rect t)).set ↔ _
  rw [View.set_slice_whole, Rect.mem_set_unit]
  exact Iff.rfl

/-- Entry `(b, t, ·, ·)` of the output is written by the point with block indices `(b, t / 32)`: the blocks cover the array. -/
theorem cover2 (i : S8x256x64x300.Idx) : ∃ t : Fin cfg2.N, (cfg2.win 4).flush t = true ∧ i ∈ ((cfg2.win 4).blk t).view.set := by
  have hi0 : (i 0).val < 8 := (i 0).isLt
  have hi1 : (i 1).val < 256 := (i 1).isLt
  have hi2 : (i 2).val < 64 := (i 2).isLt
  have hi3 : (i 3).val < 300 := (i 3).isLt
  obtain ⟨t, ht⟩ := idx_onto2 ⟨(i 0).val, hi0⟩ ⟨(i 1).val / 32, by omega⟩
  have q0 : win2_4.index t (0 : Fin 4) = (i 0).val := congrFun ht 0
  have q1 : win2_4.index t (1 : Fin 4) = (i 1).val / 32 := congrFun ht 1
  have q2 : win2_4.index t (2 : Fin 4) = 0 := congrFun ht 2
  have q3 : win2_4.index t (3 : Fin 4) = 0 := congrFun ht 3
  refine ⟨t, flush2_4 t, ?_⟩
  rw [mem_blk2]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 32 ≤ (i 1).val ∧ (i 1).val < win2_4.index t (1 : Fin 4) * 32 + 32; omega
  | ⟨2, _⟩ => show win2_4.index t (2 : Fin 4) * 64 ≤ (i 2).val ∧ (i 2).val < win2_4.index t (2 : Fin 4) * 64 + 64; omega
  | ⟨3, _⟩ => show win2_4.index t (3 : Fin 4) * 300 ≤ (i 3).val ∧ (i 3).val < win2_4.index t (3 : Fin 4) * 300 + 300; omega

/-- The output array after the region: the joint layer of the arrays the region finds, whole. -/
theorem final2 (c : Dev nD) :
    (dat2 V c).arrAt 4 cfg2.N = Cert.Joint.joint (V c main_v4) (V c main_v7) (V c main_v8) (V c main_arg7) :=
  (dat2 V c).arrAt_eq_of_cover 4 _ (fun t _ => flushed2 V c t) (cover2)

end Cert.KernelIdeal.JointArray

end
-- ==== Proof.KernelValue.lean ====
/-
  What the idealized kernel program leaves in its result buffer, as a function of the eight arguments.

  The last region's output array is the joint layer of what that region finds in its four input arrays.  Two of those
  were written by the host from the first two regions' outputs (un-flattened), one by the host from the output weights
  (transposed), one is the output bias as launched.  The first two regions' outputs are the linear layer of what THEY
  find: the flattened inputs, the transposed weights, the biases as launched.  No host operation and no region writes
  an argument, and no later segment overwrites an earlier region's output before it is read.  Substituting, the result
  buffer holds the network `Cert.Joint.G` of the arguments.
-/
import proofs.«100111_j83305185673308_1_alg».proof.Proof.Gen.KernelIdeal.Frame
import proofs.«100111_j83305185673308_1_alg».proof.Proof.Spec
import proofs.«100111_j83305185673308_1_alg».proof.Proof.Relayout
import proofs.«100111_j83305185673308_1_alg».proof.Proof.LinearArray
import proofs.«100111_j83305185673308_1_alg».proof.Proof.JointArray
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a host stretch writes the buffer in question. -/
local macro "not_written" : tactic => `(tactic| (
  refine List.forall_iff_forall_mem.mp ?_
  simp only [hostOps0, hostOps1, hostOps2, List.Forall, StableHlo.unary_writes, StableHlo.reshape_writes, Finset.mem_singleton]
  repeat' apply And.intro
  all_goals exact StableHlo.devRef_ne_of_ne (by decide)))

/-! ## The arguments, as the later segments find them -/

theorem W1_arg3 : W1 m ρ c (Proc.devRef .tc main_arg3) = m ((c : Thread nD τ).loc main_arg3) :=
  StableHlo.after_of_forall_not_mem (b := Proc.devRef .tc main_arg3) _ _ (by not_written)

theorem W2_arg4 : W2 m ρ c (Proc.devRef .tc main_arg4) = m ((c : Thread nD τ).loc main_arg4) :=
  (W2_of_ne m ρ c main_arg4 (by decide)).trans
    (StableHlo.after_of_forall_not_mem (b := Proc.devRef .tc main_arg4) _ _ (by not_written))

theorem W3_arg5 : W3 m ρ c (Proc.devRef .tc main_arg5) = m ((c : Thread nD τ).loc main_arg5) :=
  (StableHlo.after_of_forall_not_mem (b := Proc.devRef .tc main_arg5) hostOps1 (W2 m ρ c) (by not_written)).trans
    ((W2_of_ne m ρ c main_arg5 (by decide)).trans
      (StableHlo.after_of_forall_not_mem (b := Proc.devRef .tc main_arg5) _ _ (by not_written)))

theorem W4_arg6 : W4 m ρ c (Proc.devRef .tc main_arg6) = m ((c : Thread nD τ).loc main_arg6) :=
  (W4_of_ne m ρ c main_arg6 (by decide)).trans
    ((StableHlo.after_of_forall_not_mem (b := Proc.devRef .tc main_arg6) hostOps1 (W2 m ρ c) (by not_written)).trans
      ((W2_of_ne m ρ c main_arg6 (by decide)).trans
        (StableHlo.after_of_forall_not_mem (b := Proc.devRef .tc main_arg6) _ _ (by not_written))))

theorem W5_arg7 : W5 m ρ c (Proc.devRef .tc main_arg7) = m ((c : Thread nD τ).loc main_arg7) :=
  (StableHlo.after_of_forall_not_mem (b := Proc.devRef .tc main_arg7) hostOps2 (W4 m ρ c) (by not_written)).trans
    ((W4_of_ne m ρ c main_arg7 (by decide)).trans
      ((StableHlo.after_of_forall_not_mem (b := Proc.devRef .tc main_arg7) hostOps1 (W2 m ρ c) (by not_written)).trans
        ((W2_of_ne m ρ c main_arg7 (by decide)).trans
          (StableHlo.after_of_forall_not_mem (b := Proc.devRef .tc main_arg7) _ _ (by not_written)))))

/-! ## Region 0: the encoder projection on the flattened rows -/

theorem entry0_rows : V1 m ρ c main_v0
    = shapeCast S2048x512 (m ((c : Thread nD τ).loc main_arg0)) Facts₀.shapeCasts_S8x256x512_S2048x512 := by
  show StableHlo.after hostOps0 (W0 m ρ c) (Proc.devRef .tc main_v0) = _
  after_results; rfl

theorem entry0_weights : V1 m ρ c main_v2
    = transpose S512x512 [1, 0] (m ((c : Thread nD τ).loc main_arg2)) Facts₀.transposes_S512x512_S512x512_1_0 := by
  show StableHlo.after hostOps0 (W0 m ρ c) (Proc.devRef .tc main_v2) = _
  after_results

/-- The first region's output array: the linear layer of the flattened encoder input, the transposed encoder weights and
    the encoder bias. -/
theorem out0 : W2 m ρ c (Proc.devRef .tc main_v3)
    = Cert.Joint.lin (M := 2048) (shapeCast S2048x512 (m ((c : Thread nD τ).loc main_arg0)) Facts₀.shapeCasts_S8x256x512_S2048x512)
        (transpose S512x512 [1, 0] (m ((c : Thread nD τ).loc main_arg2)) Facts₀.transposes_S512x512_S512x512_1_0)
        (m ((c : Thread nD τ).loc main_arg3)) :=
  (W2_arr m ρ c 3).trans ((LinearArray.final0 (V1 m ρ) c).trans
    (congr (congr (congrArg (Cert.Joint.lin (M := 2048)) (entry0_rows m ρ c)) (entry0_weights m ρ c)) (W1_arg3 m ρ c)))

/-! ## Region 1: the predictor projection on the flattened rows -/

theorem entry1_rows : V3 m ρ c main_v1
    = shapeCast S512x512 (m ((c : Thread nD τ).loc main_arg1)) Facts₀.shapeCasts_S8x64x512_S512x512 :=
  (StableHlo.after_of_forall_not_mem (b := Proc.devRef .tc main_v1) hostOps1 (W2 m ρ c) (by not_written)).trans
    ((W2_of_ne m ρ c main_v1 (by decide)).trans (by
      show StableHlo.after hostOps0 (W0 m ρ c) (Proc.devRef .tc main_v1) = _
      after_results; rfl))

theorem entry1_weights : V3 m ρ c main_v5
    = transpose S512x512 [1, 0] (m ((c : Thread nD τ).loc main_arg4)) Facts₀.transposes_S512x512_S512x512_1_0 := by
  have e : V3 m ρ c main_v5
      = transpose S512x512 [1, 0] (W2 m ρ c (Proc.devRef .tc main_arg4)) Facts₀.transposes_S512x512_S512x512_1_0 := by
    show StableHlo.after hostOps1 (W2 m ρ c) (Proc.devRef .tc main_v5) = _
    after_results
  rw [e, W2_arg4]

/-- The second region's output array: the linear layer of the flattened predictor input, the transposed predictor weights
    and the predictor bias. -/
theorem out1 : W4 m ρ c (Proc.devRef .tc main_v6)
    = Cert.Joint.lin (M := 512) (shapeCast S512x512 (m ((c : Thread nD τ).loc main_arg1)) Facts₀.shapeCasts_S8x64x512_S512x512)
        (transpose S512x512 [1, 0] (m ((c : Thread nD τ).loc main_arg4)) Facts₀.transposes_S512x512_S512x512_1_0)
        (m ((c : Thread nD τ).loc main_arg5)) :=
  (W4_arr m ρ c 3).trans ((LinearArray.final1 (V3 m ρ) c).trans
    (congr (congr (congrArg (Cert.Joint.lin (M := 512)) (entry1_rows m ρ c)) (entry1_weights m ρ c)) (W3_arg5 m ρ c)))

/-! ## Region 2: the joint layer -/

theorem entry2_enc : V5 m ρ c main_v4
    = shapeCast S8x256x512 (W2 m ρ c (Proc.devRef .tc main_v3)) Facts₀.shapeCasts_S2048x512_S8x256x512 :=
  (StableHlo.after_of_forall_not_mem (b := Proc.devRef .tc main_v4) hostOps2 (W4 m ρ c) (by not_written)).trans
    ((W4_of_ne m ρ c main_v4 (by decide)).trans (by
      show StableHlo.after hostOps1 (W2 m ρ c) (Proc.devRef .tc main_v4) = _
      after_results; rfl))

theorem entry2_pred : V5 m ρ c main_v7
    = shapeCast S8x64x512 (W4 m ρ c (Proc.devRef .tc main_v6)) Facts₀.shapeCasts_S512x512_S8x64x512 := by
  show StableHlo.after hostOps2 (W4 m ρ c) (Proc.devRef .tc main_v7) = _
  after_results; rfl

theorem entry2_weights : V5 m ρ c main_v8
    = transpose S512x300 [1, 0] (m ((c : Thread nD τ).loc main_arg6)) Facts₀.transposes_S300x512_S512x300_1_0 := by
  have e : V5 m ρ c main_v8
      = transpose S512x300 [1, 0] (W4 m ρ c (Proc.devRef .tc main_arg6)) Facts₀.transposes_S300x512_S512x300_1_0 := by
    show StableHlo.after hostOps2 (W4 m ρ c) (Proc.devRef .tc main_v8) = _
    after_results
  rw [e, W4_arg6]

/-- THE RESULT: the last boundary's contents at the result buffer are the network of the arguments. -/
theorem result_eq : W6 m ρ c (Proc.devRef .tc main_v9)
    = Cert.Joint.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W6_arr m ρ c 4).trans ((JointArray.final2 (V5 m ρ) c).trans ?_)
  refine (congr (congr (congr (congrArg Cert.Joint.joint (entry2_enc m ρ c)) (entry2_pred m ρ c)) (entry2_weights m ρ c)) (W5_arg7 m ρ c)).trans ?_
  rw [out0, out1]
  exact Cert.Joint.joint_lin_eq_G _ _ _ _ _ _ _ _ _ _ _ _ _ _

end Cert.KernelIdeal.Result

end
-- ==== Proof.RefValue.lean ====
/-
  The reference computes the network.

  The reference is jnp's einsum form: the two projections against the stored weights (contracting the last axis of each),
  the biases broadcast over batch and position, the two projections broadcast against each other over the other's
  position axis, `tanh`, the contraction with the output weights and the output bias.  Read at an index, every broadcast
  only drops or repeats a coordinate and every contraction is a sum over the 512 features, so the result at
  `(b, t, u, v)` is `Cert.Joint.G` at `(b, t, u, v)`.
-/
import proofs.«100111_j83305185673308_1_alg».proof.Proof.Gen.ReferenceIdeal.Read
import proofs.«100111_j83305185673308_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- The reference's last stage is the network, entry by entry. -/
theorem ref_eq_G (x0 : (⟨S8x256x512, .f32⟩ : BufTy).Contents (Elt Ideal)) (x1 : (⟨S8x64x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S300x512, .f32⟩ : BufTy).Contents (Elt Ideal)) (x7 : (⟨S300, .f32⟩ : BufTy).Contents (Elt Ideal)) :
    val_main_v17 (F := Ideal) x0 x1 x2 x3 x4 x5 x6 x7 = Cert.Joint.G x0 x1 x2 x3 x4 x5 x6 x7 := by
  funext i
  obtain ⟨b, t, u, v, rfl⟩ : ∃ (b : Fin 8) (t : Fin 256) (u : Fin 64) (v : Fin 300), i = ix4 b t u v := ⟨i 0, i 1, i 2, i 3, eq_ix4 i⟩
  rw [val_main_v17_apply, val_main_v14_apply, val_main_v16_apply, val_main_v15_apply]
  show (∑ k : Fin 512, val_main_v13 (F := Ideal) x0 x1 x2 x3 x4 x5 (lidx_main_v14 (ix4 b t u v) k) * x6 (ridx_main_v14 (ix4 b t u v) k))
        + x7 (idx_main_v15 (idx_main_v16 (ix4 b t u v)))
      = (∑ j : Fin 512, Ideal.tanh (Cert.Joint.enc x0 x2 x3 b t j + Cert.Joint.pred x1 x4 x5 b u j) * x6 (ix2 v j)) + x7 (ix1 v)
  refine congrArg₂ (· + ·) (Finset.sum_congr rfl fun k _ => congrArg₂ (· * ·) ?_ (congrArg x6 ?_)) (congrArg x7 ?_)
  · rw [val_main_v13_apply, val_main_v12_apply, val_main_v10_apply, val_main_v8_apply, val_main_v3_apply, val_main_v0_apply,
      val_main_v2_apply, val_main_v1_apply, val_main_v11_apply, val_main_v9_apply, val_main_v7_apply, val_main_v4_apply,
      val_main_v6_apply, val_main_v5_apply]
    unfold Cert.Joint.enc Cert.Joint.pred
    refine congrArg Ideal.tanh (congrArg₂ (· + ·)
      (congrArg₂ (· + ·) (Finset.sum_congr rfl fun d _ => congrArg₂ (· * ·) (congrArg x0 ?_) (congrArg x2 ?_)) (congrArg x3 ?_))
      (congrArg₂ (· + ·) (Finset.sum_congr rfl fun d _ => congrArg₂ (· * ·) (congrArg x1 ?_) (congrArg x4 ?_)) (congrArg x5 ?_)))
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
    · exact funext fun a => Fin.ext (by match a with | ⟨0, _⟩ => rfl)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
    · exact funext fun a => Fin.ext (by match a with | ⟨0, _⟩ => rfl)
  · exact funext fun a => Fin.ext (by match a with | ⟨0, _⟩ => rfl | ⟨1, _⟩ => rfl)
  · exact funext fun a => Fin.ext (by match a with | ⟨0, _⟩ => rfl)

end Cert.ReferenceIdeal.RefValue

end
-- ==== Proof.lean ====
/-
  The joint network of a transducer: the Pallas program against its jnp reference, over the extended reals.

  Both programs take an encoder input `X : [8, 256, 512]`, a predictor input `P : [8, 64, 512]`, two 512 × 512 weight
  matrices with biases and a 300 × 512 output matrix with bias, and return the logits `[8, 256, 64, 300]`
    G[b, t, u, v] = Σ_j tanh (enc b t j + pred b u j) · Wo[v, j] + bo[v],
    enc b t j = Σ_d X[b, t, d] · We[j, d] + be[j],     pred b u j = Σ_d P[b, u, d] · Wp[j, d] + bp[j]
  (`Cert.Joint.G`, Proof/Spec.lean).

  The kernel program runs three pipelined regions among host reshapes and transposes: a linear layer on the 2048
  flattened encoder rows in blocks of 256, the same on the 512 flattened predictor rows in blocks of 64, and the joint
  layer on blocks of 32 encoder rows against all 64 predictor rows of one batch element.  Each region's output array is
  one function of the arrays the region finds (Proof/LinearArray.lean, Proof/JointArray.lean, over the bodies' stored
  values of Proof/LinearBlock.lean and Proof/JointBlock.lean); following the buffers through the segments
  (Proof/KernelRun.lean, Proof/KernelValue.lean) and reading every reshape and transpose at an index
  (Proof/Relayout.lean) the result buffer holds `G` of the arguments.  The roundings to bf16 on the way into the three
  matrix products are the identity on extended reals, and a matrix product into a zero accumulator is the plain sum.
  The reference is `G` stage by stage (Proof/RefValue.lean).  Once the indices are read off, both sides are the same
  sums of the same products, so no algebraic law is used and the finiteness of the inputs is never needed.  The ideal
  pass rewrote nothing, so there is nothing to preserve.
-/
import proofs.«100111_j83305185673308_1_alg».proof.Defs
import proofs.«100111_j83305185673308_1_alg».proof.Proof.Gen.Kernel
import proofs.«100111_j83305185673308_1_alg».proof.Proof.Gen.Kernel.Frame
import proofs.«100111_j83305185673308_1_alg».proof.Proof.Gen.KernelIdeal
import proofs.«100111_j83305185673308_1_alg».proof.Proof.Gen.KernelIdeal.Frame
import proofs.«100111_j83305185673308_1_alg».proof.Proof.Gen.ReferenceIdeal
import proofs.«100111_j83305185673308_1_alg».proof.Proof.Gen.ReferenceIdeal.Run
import proofs.«100111_j83305185673308_1_alg».proof.Proof.Gen.ReferenceIdeal.Read
import proofs.«100111_j83305185673308_1_alg».proof.Proof.Gen.Pre_finite_inputs
import proofs.«100111_j83305185673308_1_alg».proof.Proof.Spec
import proofs.«100111_j83305185673308_1_alg».proof.Proof.KernelRun
import proofs.«100111_j83305185673308_1_alg».proof.Proof.KernelValue
import proofs.«100111_j83305185673308_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the network `G` of those arguments in their result
    buffers, and with their arguments unchanged. -/
theorem algebraic : Cert.algebraic_KernelIdeal_ReferenceIdeal := by
  intro m ρ m' ρ' _ hagree
  refine ⟨fun c => Cert.Joint.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v17_eq, Cert.ReferenceIdeal.RefValue.ref_eq_G, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
